-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x1 .f32) (main_arg11 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 88
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S1x64, .f32⟩
  | .hbm, ⟨84, _⟩ => ⟨S1x64, .f32⟩
  | .hbm, ⟨85, _⟩ => ⟨S1x1, .f32⟩
  | .hbm, ⟨86, _⟩ => ⟨S100000x1, .f32⟩
  | .hbm, ⟨87, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem6_0 : DmaSem sig := 27
abbrev cc4_sem7_0 : DmaSem sig := 28
abbrev cc4_sem7_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S100000x1.size a
  hwx4_7 : ∀ i : grid4.Coords, EltTy.bits .f32 = 32 ∨ (Rect.block (s := S100000x1) S5000x1.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg10) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x1, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x1, .f32⟩
  | .hbm, ⟨106, _⟩ => ⟨S1x1, .f32⟩
  | .hbm, ⟨107, _⟩ => ⟨S100000x1, .f32⟩
  | .hbm, ⟨108, _⟩ => ⟨S100000x1, .f32⟩
  | .hbm, ⟨109, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call3_cst : Ref sig .tc := ⟨.hbm, 102, rfl⟩
abbrev main_call3_v0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.ValueRun.lean ====
/-
  The tiled program's run with its result named. The program is ten segments in a row — five stretches of host
  operations and five regions — and the contents of every buffer at each segment's boundary are a fold from the launch
  memory: a stretch applies its operations, a region leaves each of its arrays at what its write-backs folded and
  every other buffer untouched. Every weakly fair execution from any memory with zero counters terminates without a
  fault in a state whose unscoped buffers hold the last boundary's contents. Read at the result buffer this names the
  result; read at the argument buffers, which no segment writes, it gives back the launch contents.
-/
import proofs.«179422_j90701119357780_1_alg».proof.Proof.Gen.KernelIdeal.Frame

set_option maxRecDepth 16384

noncomputable section

namespace Cert.KernelIdeal.ValueRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the tiled program terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.ValueRun

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Spec.lean ====
/-
  The mathematics of the regular stages of a two-layer graph convolution with a three-layer head, stated ROW BY ROW on
  the extended reals. Every regular stage of the network acts on each node's 64 features separately:

  * a projection sends a row `x` to `x · W`: entry `j` is the sum over `k` of `x(k) · W(k, j)`;
  * the bias stage adds one bias row to the row and clamps the sum below at zero;
  * the head is two projections, each followed by the bias stage, and a last projection onto a single column
    with its bias added (no clamp).

  A whole array `[n, 64]` goes through a stage by sending each of its rows through it, so a block of consecutive
  rows of the array goes through the stage exactly as those rows do inside the whole array. This is what lets a
  computation tiled over blocks of rows be compared with one over the whole array: both are the same function of a row.
-/
import Idealize.ShloMosaic.Lib.ValueIdx
import Idealize.ShloMosaic.PureOps.Ideal

noncomputable section

open scoped BigOperators

namespace Cert.Spec

open Idealize.ShloMosaic Idealize.ShloMosaic.ValueIdx

/-- The zero the clamp compares with: the word of `0.0`, kept as a word (both programs spell the same word). -/
abbrev zeroWord : EReal := Ideal.ofBits .f32 0x00000000#32

/-- One row times a 64 × 64 matrix: entry `j` is the sum over `k` of `x(k) · W(k, j)`. -/
def rowTimes (x : Fin 64 → EReal) (W : (⟨2, ![64, 64]⟩ : Shape).Idx → EReal) : Fin 64 → EReal :=
  fun j => ∑ k : Fin 64, x k * W (ix2 k j)

/-- One row times a 64 × 1 matrix: the sum over `k` of `x(k) · w(k, 0)`. -/
def rowTimesCol (x : Fin 64 → EReal) (w : (⟨2, ![64, 1]⟩ : Shape).Idx → EReal) : EReal :=
  ∑ k : Fin 64, x k * w (ix2 k 0)

/-- A bias row added to a row, the sum clamped below at zero. -/
def rowBiasRelu (a : Fin 64 → EReal) (b : (⟨2, ![1, 64]⟩ : Shape).Idx → EReal) : Fin 64 → EReal :=
  fun j => max (a j + b (ix2 0 j)) zeroWord

/-- The head on one row: two projections each followed by the bias stage, then the projection onto one column and its bias. -/
def rowHead (x : Fin 64 → EReal) (W1 : (⟨2, ![64, 64]⟩ : Shape).Idx → EReal) (b1 : (⟨2, ![1, 64]⟩ : Shape).Idx → EReal)
    (W2 : (⟨2, ![64, 64]⟩ : Shape).Idx → EReal) (b2 : (⟨2, ![1, 64]⟩ : Shape).Idx → EReal)
    (W3 : (⟨2, ![64, 1]⟩ : Shape).Idx → EReal) (b3 : (⟨2, ![1, 1]⟩ : Shape).Idx → EReal) : EReal :=
  rowTimesCol (rowBiasRelu (rowTimes (rowBiasRelu (rowTimes x W1) b1) W2) b2) W3 + b3 (ix2 0 0)

/-- Row `n` of an `[R, 64]` array. -/
abbrev rowOf {R : Nat} (X : (⟨2, ![R, 64]⟩ : Shape).Idx → EReal) (n : Fin R) : Fin 64 → EReal := fun k => X (ix2 n k)

/-- The projection of every row of an `[R, 64]` array. -/
def project {R : Nat} (X : (⟨2, ![R, 64]⟩ : Shape).Idx → EReal) (W : (⟨2, ![64, 64]⟩ : Shape).Idx → EReal) :
    (⟨2, ![R, 64]⟩ : Shape).Idx → EReal :=
  fun i => rowTimes (rowOf X (i 0)) W (i 1)

/-- The bias stage on every row of an `[R, 64]` array. -/
def biasRelu {R : Nat} (A : (⟨2, ![R, 64]⟩ : Shape).Idx → EReal) (b : (⟨2, ![1, 64]⟩ : Shape).Idx → EReal) :
    (⟨2, ![R, 64]⟩ : Shape).Idx → EReal :=
  fun i => rowBiasRelu (rowOf A (i 0)) b (i 1)

/-- The head on every row of an `[R, 64]` array: an `[R, 1]` column. -/
def head {R : Nat} (H : (⟨2, ![R, 64]⟩ : Shape).Idx → EReal) (W1 : (⟨2, ![64, 64]⟩ : Shape).Idx → EReal)
    (b1 : (⟨2, ![1, 64]⟩ : Shape).Idx → EReal) (W2 : (⟨2, ![64, 64]⟩ : Shape).Idx → EReal)
    (b2 : (⟨2, ![1, 64]⟩ : Shape).Idx → EReal) (W3 : (⟨2, ![64, 1]⟩ : Shape).Idx → EReal)
    (b3 : (⟨2, ![1, 1]⟩ : Shape).Idx → EReal) : (⟨2, ![R, 1]⟩ : Shape).Idx → EReal :=
  fun i => rowHead (rowOf H (i 0)) W1 b1 W2 b2 W3 b3

/-- A vector of 64 entries laid out as the one row of a `[1, 64]` array. -/
def rowVec (b : (⟨1, ![64]⟩ : Shape).Idx → EReal) : (⟨2, ![1, 64]⟩ : Shape).Idx → EReal := fun i => b (ix1 (i 1))

/-- A vector of one entry laid out as the one cell of a `[1, 1]` array. -/
def cell (b : (⟨1, ![1]⟩ : Shape).Idx → EReal) : (⟨2, ![1, 1]⟩ : Shape).Idx → EReal := fun i => b (ix1 (i 1))

/-- A stage reads a whole array at `(n, j)` through row `n` alone. -/
theorem project_apply {R : Nat} (X : (⟨2, ![R, 64]⟩ : Shape).Idx → EReal) (W : (⟨2, ![64, 64]⟩ : Shape).Idx → EReal)
    (n : Fin R) (j : Fin 64) : project X W (ix2 n j) = rowTimes (rowOf X n) W j := rfl

theorem biasRelu_apply {R : Nat} (A : (⟨2, ![R, 64]⟩ : Shape).Idx → EReal) (b : (⟨2, ![1, 64]⟩ : Shape).Idx → EReal)
    (n : Fin R) (j : Fin 64) : biasRelu A b (ix2 n j) = rowBiasRelu (rowOf A n) b j := rfl

theorem head_apply {R : Nat} (H : (⟨2, ![R, 64]⟩ : Shape).Idx → EReal) (W1 : (⟨2, ![64, 64]⟩ : Shape).Idx → EReal)
    (b1 : (⟨2, ![1, 64]⟩ : Shape).Idx → EReal) (W2 : (⟨2, ![64, 64]⟩ : Shape).Idx → EReal)
    (b2 : (⟨2, ![1, 64]⟩ : Shape).Idx → EReal) (W3 : (⟨2, ![64, 1]⟩ : Shape).Idx → EReal)
    (b3 : (⟨2, ![1, 1]⟩ : Shape).Idx → EReal) (n : Fin R) (q : Fin 1) :
    head H W1 b1 W2 b2 W3 b3 (ix2 n q) = rowHead (rowOf H n) W1 b1 W2 b2 W3 b3 := rfl

end Cert.Spec

end
-- ==== Proof.Proj0.lean ====
/-
  The projection region number 0: a grid of 20 points, point `t` fetching rows `5000·t … 5000·t + 4999` of the
  `[100000, 64]` row operand and the whole `[64, 64]` matrix, multiplying them, and writing the product back to the
  same rows of the result. A row of the block times the matrix depends on that row alone, so what point `t` writes
  back is block `t` of ONE whole-array function, the projection of every row (`Cert.Spec.project`); the 20 blocks tile
  the array, so after the region the result array holds that function of the two operands as the region found them.
-/
import proofs.«179422_j90701119357780_1_alg».proof.Proof.Gen.KernelIdeal.Frame
import proofs.«179422_j90701119357780_1_alg».proof.Proof.LibMatmulNN
import proofs.«179422_j90701119357780_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Proj0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at `(p, q)` of the block: row `p` of the row operand's block times the matrix, at `q`
    (the two narrowings of the float format are the identity on extended reals, the accumulator is zero). -/
theorem pay_apply (x0 : Vec Ideal S5000x64 .f32) (x1 : Vec Ideal S64x64 .f32) (p : Fin 5000) (q : Fin 64) :
    k0_pay1 x0 x1 (ix2 p q) = rowTimes (fun k => x0 (ix2 p k)) x1 q := by
  unfold k0_pay1
  exact Cert.LibMatmulNN.matmul_nn_apply dot_S5000x64_S64x64_S5000x64_1_0_0_1_n_n rfl rfl rfl rfl rfl rfl none _ _ p q

/-- The block indices over the grid: the row operand's and the result's blocks are at row-block `t`, column-block 0;
    the matrix's one block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the row operand's block at point `t` is row `5000·t + p` of the array. -/
theorem xblk_apply (c : Dev nD) (t : Fin cfg0.N) (p : Fin 5000) (k : Fin 64) (n : Fin 100000)
    (hn : n.val = 5000 * t.val + p.val) :
    (iblk0 V c 0 t : Vec Ideal S5000x64 .f32) (ix2 p k) = (V c main_arg0 : S100000x64.Idx → EReal) (ix2 n k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- The matrix's block at any point is the matrix. -/
theorem wblk_apply (c : Dev nD) (t : Fin cfg0.N) (k j : Fin 64) :
    (iblk0 V c 1 t : Vec Ideal S64x64 .f32) (ix2 k j) = (V c main_arg2 : S64x64.Idx → EReal) (ix2 k j) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * j.val = j.val; rw [e3]; omega

/-- WHAT POINT `t` WRITES BACK is block `t` of the projection of the row operand by the matrix. -/
theorem flushed_eq (c : Dev nD) (t : Fin cfg0.N) :
    (dat0 V c).flushed 2 t = ((cfg0.win 2).blk t).view.read (Elt Ideal)
      (project (R := 100000) (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := idx_facts t
  funext j
  obtain ⟨p, q, rfl⟩ : ∃ (p : Fin 5000) (q : Fin 64), j = (ix2 p q : S5000x64.Idx) := ⟨j 0, j 1, eq_ix2 j⟩
  rw [View.read_apply]
  have hp : p.val < 5000 := p.isLt
  have ht : t.val < 20 := by have h1 := t.isLt; have hN : cfg0.N = 20 := N_0; omega
  -- the array index under `(p, q)` of block `t`
  have hemb : ((cfg0.win 2).blk t).view.emb (ix2 p q : S5000x64.Idx)
      = (ix2 (⟨5000 * t.val + p.val, by omega⟩ : Fin 100000) q : S100000x64.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  show k0_pay1 (iblk0 V c 0 t) (iblk0 V c 1 t) (ix2 p q) = project (R := 100000) (V c main_arg0) (V c main_arg2) _
  rw [hemb, project_apply, pay_apply]
  congr 1
  · funext k; exact xblk_apply V c t p k _ rfl
  · funext i
    obtain ⟨k, j, rfl⟩ : ∃ (k j : Fin 64), i = (ix2 k j : S64x64.Idx) := ⟨i 0, i 1, eq_ix2 i⟩
    exact wblk_apply V c t k j

/-- Every row of the result is in the block of the point that owns it. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  have htv : t.val = (i 0).val / 5000 := rfl
  refine ⟨t, flush0_2 t, ?_⟩
  show i ∈ ((View.whole main_v27).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000
              rw [e4, htv]; omega
  | ⟨1, _⟩ => show win0_2.index t (1 : Fin 2) * 64 ≤ (i 1).val ∧ (i 1).val < win0_2.index t (1 : Fin 2) * 64 + 64
              rw [e5]; omega

/-- THE RESULT ARRAY after the region: the projection of the row operand by the matrix, both as the region found them. -/
theorem final (c : Dev nD) :
    (dat0 V c).arrAt 2 cfg0.N = project (R := 100000) (V c main_arg0) (V c main_arg2) :=
  (dat0 V c).arrAt_eq_of_cover 2 _ (fun t _ => flushed_eq V c t) covered

end Cert.KernelIdeal.Proj0

end
-- ==== Proof.Bias1.lean ====
/-
  The bias region number 1: a grid of 20 points, point `t` fetching rows `5000·t … 5000·t + 4999` of the
  `[100000, 64]` operand and the one `[1, 64]` bias row, adding the bias row to every row of the block, clamping the sums
  below at zero, and writing the block back to the same rows of the result. Each row goes through the stage by itself, so
  what point `t` writes back is block `t` of ONE whole-array function (`Cert.Spec.biasRelu`), and the 20 blocks tile
  the array: after the region the result array holds that function of the two operands as the region found them.
-/
import proofs.«179422_j90701119357780_1_alg».proof.Proof.Gen.KernelIdeal.Frame
import proofs.«179422_j90701119357780_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Bias1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at `(p, q)` of the block: the entry plus the bias row's entry `q`, clamped below at zero. -/
theorem pay_apply (x0 : Vec Ideal S5000x64 .f32) (x1 : Vec Ideal S1x64 .f32) (p : Fin 5000) (q : Fin 64) :
    k1_pay1 x0 x1 (ix2 p q) = rowBiasRelu (fun k => x0 (ix2 p k)) x1 q := by
  unfold k1_pay1
  simp only [shapeCast_self]
  show max (x0 (ix2 p q) + broadcastTo S5000x64 x1 broadcasts_S1x64_S5000x64 (ix2 p q)) (Ideal.ofBits .f32 0x00000000#32) = _
  rw [broadcastTo_1b_ab_apply]
  rfl

/-- The block indices over the grid: the operand's and the result's blocks are at row-block `t`, column-block 0; the
    bias row's one block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the operand's block at point `t` is row `5000·t + p` of the array. -/
theorem xblk_apply (c : Dev nD) (t : Fin cfg1.N) (p : Fin 5000) (k : Fin 64) (n : Fin 100000)
    (hn : n.val = 5000 * t.val + p.val) :
    (iblk1 V c 0 t : Vec Ideal S5000x64 .f32) (ix2 p k) = (V c main_v40 : S100000x64.Idx → EReal) (ix2 n k) := by
  obtain ⟨e0, e1, -, -, -, -⟩ := idx_facts t
  unfold iblk1
  rw [View.read_apply]
  show V c main_v40 _ = V c main_v40 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- The bias row's block at any point is the bias row. -/
theorem bblk_apply (c : Dev nD) (t : Fin cfg1.N) (u : Fin 1) (j : Fin 64) :
    (iblk1 V c 1 t : Vec Ideal S1x64 .f32) (ix2 u j) = (V c main_v41 : S1x64.Idx → EReal) (ix2 u j) := by
  obtain ⟨-, -, e2, e3, -, -⟩ := idx_facts t
  unfold iblk1
  rw [View.read_apply]
  show V c main_v41 _ = V c main_v41 _
  congr 1
  funext a
  apply Fin.ext
  match a with
  | ⟨0, _⟩ => show win1_1.index t (0 : Fin 2) * 1 + 1 * u.val = u.val; rw [e2]; omega
  | ⟨1, _⟩ => show win1_1.index t (1 : Fin 2) * 64 + 1 * j.val = j.val; rw [e3]; omega

/-- WHAT POINT `t` WRITES BACK is block `t` of the bias stage of the operand. -/
theorem flushed_eq (c : Dev nD) (t : Fin cfg1.N) :
    (dat1 V c).flushed 2 t = ((cfg1.win 2).blk t).view.read (Elt Ideal)
      (biasRelu (R := 100000) (V c main_v40) (V c main_v41)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e4, e5⟩ := idx_facts t
  funext j
  obtain ⟨p, q, rfl⟩ : ∃ (p : Fin 5000) (q : Fin 64), j = (ix2 p q : S5000x64.Idx) := ⟨j 0, j 1, eq_ix2 j⟩
  rw [View.read_apply]
  have hp : p.val < 5000 := p.isLt
  have ht : t.val < 20 := by have h1 := t.isLt; have hN : cfg1.N = 20 := N_1; omega
  have hemb : ((cfg1.win 2).blk t).view.emb (ix2 p q : S5000x64.Idx)
      = (ix2 (⟨5000 * t.val + p.val, by omega⟩ : Fin 100000) q : S100000x64.Idx) := by
    funext a
    apply Fin.ext
    match a with
    | ⟨0, _⟩ => show win1_2.index t (0 : Fin 2) * 5000 + 1 * p.val = 5000 * t.val + p.val; rw [e4]; omega
    | ⟨1, _⟩ => show win1_2.index t (1 : Fin 2) * 64 + 1 * q.val = q.val; rw [e5]; omega
  show k1_pay1 (iblk1 V c 0 t) (iblk1 V c 1 t) (ix2 p q) = biasRelu (R := 100000) (V c main_v40) (V c main_v41) _
  rw [hemb, biasRelu_apply, pay_apply]
  congr 1
  · funext k; exact xblk_apply V c t p k _ rfl
  · funext i
    obtain ⟨u, j, rfl⟩ : ∃ (u : Fin 1) (j : Fin 64), i = (ix2 u j : S1x64.Idx) := ⟨i 0, i 1, eq_ix2 i⟩
    exact bblk_apply V c t u j

/-- Every row of the result is in the block of the point that owns it. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := idx_facts t
  have htv : t.val = (i 0).val / 5000 := rfl
  refine ⟨t, flush1_2 t, ?_⟩
  show i ∈ ((View.whole main_v42).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000
              rw [e4, htv]; omega
  | ⟨1, _⟩ => show win1_2.index t (1 : Fin 2) * 64 ≤ (i 1).val ∧ (i 1).val < win1_2.index t (1 : Fin 2) * 64 + 64
              rw [e5]; omega

/-- THE RESULT ARRAY after the region: the bias stage of the operand, both operands as the region found them. -/
theorem final (c : Dev nD) :
    (dat1 V c).arrAt 2 cfg1.N = biasRelu (R := 100000) (V c main_v40) (V c main_v41) :=
  (dat1 V c).arrAt_eq_of_cover 2 _ (fun t _ => flushed_eq V c t) covered

end Cert.KernelIdeal.Bias1

end
-- ==== Proof.Proj2.lean ====
/-
  The projection region number 2: a grid of 20 points, point `t` fetching rows `5000·t … 5000·t + 4999` of the
  `[100000, 64]` row operand and the whole `[64, 64]` matrix, multiplying them, and writing the product back to the
  same rows of the result. A row of the block times the matrix depends on that row alone, so what point `t` writes
  back is block `t` of ONE whole-array function, the projection of every row (`Cert.Spec.project`); the 20 blocks tile
  the array, so after the region the result array holds that function of the two operands as the region found them.
-/
import proofs.«179422_j90701119357780_1_alg».proof.Proof.Gen.KernelIdeal.Frame
import proofs.«179422_j90701119357780_1_alg».proof.Proof.LibMatmulNN
import proofs.«179422_j90701119357780_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Proj2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at `(p, q)` of the block: row `p` of the row operand's block times the matrix, at `q`
    (the two narrowings of the float format are the identity on extended reals, the accumulator is zero). -/
theorem pay_apply (x0 : Vec Ideal S5000x64 .f32) (x1 : Vec Ideal S64x64 .f32) (p : Fin 5000) (q : Fin 64) :
    k2_pay1 x0 x1 (ix2 p q) = rowTimes (fun k => x0 (ix2 p k)) x1 q := by
  unfold k2_pay1
  simp only [shapeCast_self]
  exact Cert.LibMatmulNN.matmul_nn_apply dot_S5000x64_S64x64_S5000x64_1_0_0_1_n_n rfl rfl rfl rfl rfl rfl none _ _ p q

/-- The block indices over the grid: the row operand's and the result's blocks are at row-block `t`, column-block 0;
    the matrix's one block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the row operand's block at point `t` is row `5000·t + p` of the array. -/
theorem xblk_apply (c : Dev nD) (t : Fin cfg2.N) (p : Fin 5000) (k : Fin 64) (n : Fin 100000)
    (hn : n.val = 5000 * t.val + p.val) :
    (iblk2 V c 0 t : Vec Ideal S5000x64 .f32) (ix2 p k) = (V c main_v42 : S100000x64.Idx → EReal) (ix2 n k) := by
  obtain ⟨e0, e1, -, -, -, -⟩ := idx_facts t
  unfold iblk2
  rw [View.read_apply]
  show V c main_v42 _ = V c main_v42 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 64 + 1 * k.val = k.val; rw [e1]; omega

/-- The matrix's block at any point is the matrix. -/
theorem wblk_apply (c : Dev nD) (t : Fin cfg2.N) (k j : Fin 64) :
    (iblk2 V c 1 t : Vec Ideal S64x64 .f32) (ix2 k j) = (V c main_arg4 : S64x64.Idx → EReal) (ix2 k j) := by
  obtain ⟨-, -, e2, e3, -, -⟩ := idx_facts t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * j.val = j.val; rw [e3]; omega

/-- WHAT POINT `t` WRITES BACK is block `t` of the projection of the row operand by the matrix. -/
theorem flushed_eq (c : Dev nD) (t : Fin cfg2.N) :
    (dat2 V c).flushed 2 t = ((cfg2.win 2).blk t).view.read (Elt Ideal)
      (project (R := 100000) (V c main_v42) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := idx_facts t
  funext j
  obtain ⟨p, q, rfl⟩ : ∃ (p : Fin 5000) (q : Fin 64), j = (ix2 p q : S5000x64.Idx) := ⟨j 0, j 1, eq_ix2 j⟩
  rw [View.read_apply]
  have hp : p.val < 5000 := p.isLt
  have ht : t.val < 20 := by have h1 := t.isLt; have hN : cfg2.N = 20 := N_2; omega
  -- the array index under `(p, q)` of block `t`
  have hemb : ((cfg2.win 2).blk t).view.emb (ix2 p q : S5000x64.Idx)
      = (ix2 (⟨5000 * t.val + p.val, by omega⟩ : Fin 100000) q : S100000x64.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 64 + 1 * q.val = q.val; rw [e5]; omega
  show k2_pay1 (iblk2 V c 0 t) (iblk2 V c 1 t) (ix2 p q) = project (R := 100000) (V c main_v42) (V c main_arg4) _
  rw [hemb, project_apply, pay_apply]
  congr 1
  · funext k; exact xblk_apply V c t p k _ rfl
  · funext i
    obtain ⟨k, j, rfl⟩ : ∃ (k j : Fin 64), i = (ix2 k j : S64x64.Idx) := ⟨i 0, i 1, eq_ix2 i⟩
    exact wblk_apply V c t k j

/-- Every row of the result is in the block of the point that owns it. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  have htv : t.val = (i 0).val / 5000 := rfl
  refine ⟨t, flush2_2 t, ?_⟩
  show i ∈ ((View.whole main_v43).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000
              rw [e4, htv]; omega
  | ⟨1, _⟩ => show win2_2.index t (1 : Fin 2) * 64 ≤ (i 1).val ∧ (i 1).val < win2_2.index t (1 : Fin 2) * 64 + 64
              rw [e5]; omega

/-- THE RESULT ARRAY after the region: the projection of the row operand by the matrix, both as the region found them. -/
theorem final (c : Dev nD) :
    (dat2 V c).arrAt 2 cfg2.N = project (R := 100000) (V c main_v42) (V c main_arg4) :=
  (dat2 V c).arrAt_eq_of_cover 2 _ (fun t _ => flushed_eq V c t) covered

end Cert.KernelIdeal.Proj2

end
-- ==== Proof.Bias3.lean ====
/-
  The bias region number 3: a grid of 20 points, point `t` fetching rows `5000·t … 5000·t + 4999` of the
  `[100000, 64]` operand and the one `[1, 64]` bias row, adding the bias row to every row of the block, clamping the sums
  below at zero, and writing the block back to the same rows of the result. Each row goes through the stage by itself, so
  what point `t` writes back is block `t` of ONE whole-array function (`Cert.Spec.biasRelu`), and the 20 blocks tile
  the array: after the region the result array holds that function of the two operands as the region found them.
-/
import proofs.«179422_j90701119357780_1_alg».proof.Proof.Gen.KernelIdeal.Frame
import proofs.«179422_j90701119357780_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Bias3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at `(p, q)` of the block: the entry plus the bias row's entry `q`, clamped below at zero. -/
theorem pay_apply (x0 : Vec Ideal S5000x64 .f32) (x1 : Vec Ideal S1x64 .f32) (p : Fin 5000) (q : Fin 64) :
    k3_pay1 x0 x1 (ix2 p q) = rowBiasRelu (fun k => x0 (ix2 p k)) x1 q := by
  unfold k3_pay1
  simp only [shapeCast_self]
  show max (x0 (ix2 p q) + broadcastTo S5000x64 x1 broadcasts_S1x64_S5000x64 (ix2 p q)) (Ideal.ofBits .f32 0x00000000#32) = _
  rw [broadcastTo_1b_ab_apply]
  rfl

/-- The block indices over the grid: the operand's and the result's blocks are at row-block `t`, column-block 0; the
    bias row's one block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the operand's block at point `t` is row `5000·t + p` of the array. -/
theorem xblk_apply (c : Dev nD) (t : Fin cfg3.N) (p : Fin 5000) (k : Fin 64) (n : Fin 100000)
    (hn : n.val = 5000 * t.val + p.val) :
    (iblk3 V c 0 t : Vec Ideal S5000x64 .f32) (ix2 p k) = (V c main_v56 : S100000x64.Idx → EReal) (ix2 n k) := by
  obtain ⟨e0, e1, -, -, -, -⟩ := idx_facts t
  unfold iblk3
  rw [View.read_apply]
  show V c main_v56 _ = V c main_v56 _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 64 + 1 * k.val = k.val; rw [e1]; omega

/-- The bias row's block at any point is the bias row. -/
theorem bblk_apply (c : Dev nD) (t : Fin cfg3.N) (u : Fin 1) (j : Fin 64) :
    (iblk3 V c 1 t : Vec Ideal S1x64 .f32) (ix2 u j) = (V c main_v57 : S1x64.Idx → EReal) (ix2 u j) := by
  obtain ⟨-, -, e2, e3, -, -⟩ := idx_facts t
  unfold iblk3
  rw [View.read_apply]
  show V c main_v57 _ = V c main_v57 _
  congr 1
  funext a
  apply Fin.ext
  match a with
  | ⟨0, _⟩ => show win3_1.index t (0 : Fin 2) * 1 + 1 * u.val = u.val; rw [e2]; omega
  | ⟨1, _⟩ => show win3_1.index t (1 : Fin 2) * 64 + 1 * j.val = j.val; rw [e3]; omega

/-- WHAT POINT `t` WRITES BACK is block `t` of the bias stage of the operand. -/
theorem flushed_eq (c : Dev nD) (t : Fin cfg3.N) :
    (dat3 V c).flushed 2 t = ((cfg3.win 2).blk t).view.read (Elt Ideal)
      (biasRelu (R := 100000) (V c main_v56) (V c main_v57)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx_facts t
  funext j
  obtain ⟨p, q, rfl⟩ : ∃ (p : Fin 5000) (q : Fin 64), j = (ix2 p q : S5000x64.Idx) := ⟨j 0, j 1, eq_ix2 j⟩
  rw [View.read_apply]
  have hp : p.val < 5000 := p.isLt
  have ht : t.val < 20 := by have h1 := t.isLt; have hN : cfg3.N = 20 := N_3; omega
  have hemb : ((cfg3.win 2).blk t).view.emb (ix2 p q : S5000x64.Idx)
      = (ix2 (⟨5000 * t.val + p.val, by omega⟩ : Fin 100000) q : S100000x64.Idx) := by
    funext a
    apply Fin.ext
    match a with
    | ⟨0, _⟩ => show win3_2.index t (0 : Fin 2) * 5000 + 1 * p.val = 5000 * t.val + p.val; rw [e4]; omega
    | ⟨1, _⟩ => show win3_2.index t (1 : Fin 2) * 64 + 1 * q.val = q.val; rw [e5]; omega
  show k3_pay1 (iblk3 V c 0 t) (iblk3 V c 1 t) (ix2 p q) = biasRelu (R := 100000) (V c main_v56) (V c main_v57) _
  rw [hemb, biasRelu_apply, pay_apply]
  congr 1
  · funext k; exact xblk_apply V c t p k _ rfl
  · funext i
    obtain ⟨u, j, rfl⟩ : ∃ (u : Fin 1) (j : Fin 64), i = (ix2 u j : S1x64.Idx) := ⟨i 0, i 1, eq_ix2 i⟩
    exact bblk_apply V c t u j

/-- Every row of the result is in the block of the point that owns it. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, e4, e5⟩ := idx_facts t
  have htv : t.val = (i 0).val / 5000 := rfl
  refine ⟨t, flush3_2 t, ?_⟩
  show i ∈ ((View.whole main_v58).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000
              rw [e4, htv]; omega
  | ⟨1, _⟩ => show win3_2.index t (1 : Fin 2) * 64 ≤ (i 1).val ∧ (i 1).val < win3_2.index t (1 : Fin 2) * 64 + 64
              rw [e5]; omega

/-- THE RESULT ARRAY after the region: the bias stage of the operand, both operands as the region found them. -/
theorem final (c : Dev nD) :
    (dat3 V c).arrAt 2 cfg3.N = biasRelu (R := 100000) (V c main_v56) (V c main_v57) :=
  (dat3 V c).arrAt_eq_of_cover 2 _ (fun t _ => flushed_eq V c t) covered

end Cert.KernelIdeal.Bias3

end
-- ==== Proof.Head4.lean ====
/-
  The head region: a grid of 20 points, point `t` fetching rows `5000·t … 5000·t + 4999` of the `[100000, 64]` hidden
  features together with the whole of the three weight matrices and the three bias rows, sending every row of the block
  through two hidden layers (a projection, the bias row added, the sum clamped below at zero) and the last projection
  onto one column with its bias, and writing the `[5000, 1]` column back to the same rows of the `[100000, 1]` result.
  Each row goes through the head by itself (`Cert.Spec.rowHead`), so what point `t` writes back is block `t` of ONE
  whole-array function (`Cert.Spec.head`); the 20 blocks tile the result.
-/
import proofs.«179422_j90701119357780_1_alg».proof.Proof.Gen.KernelIdeal.Frame
import proofs.«179422_j90701119357780_1_alg».proof.Proof.LibMatmulNN
import proofs.«179422_j90701119357780_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Head4

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- One hidden layer on a block, at `(p, k)`: row `p` of the block times the matrix, plus the bias row, clamped at zero
    (the narrowings of the float format are the identity on extended reals; the accumulator is zero). -/
theorem layer_apply (A : FVec Ideal S5000x64 .f32) (W : FVec Ideal S64x64 .f32) (b : FVec Ideal S1x64 .f32)
    (h1 : FTy.bits .bf16 < FTy.bits .f32) (hb : S1x64.Broadcasts S5000x64) (p : Fin 5000) (k : Fin 64) :
    maximumf (addf (matmul dot_S5000x64_S64x64_S5000x64_1_0_0_1_n_n none (truncf .bf16 A h1) (truncf .bf16 W h1)
        (constant S5000x64 .f32 0x00000000#32)) (broadcastTo S5000x64 b hb))
      (broadcast S5000x64 (Scalar.ofBits .f32 0x00000000#32)) (ix2 p k)
    = rowBiasRelu (rowTimes (fun k' => A (ix2 p k')) W) b k := by
  show max (matmul dot_S5000x64_S64x64_S5000x64_1_0_0_1_n_n none (truncf .bf16 A h1) (truncf .bf16 W h1)
        (constant S5000x64 .f32 0x00000000#32) (ix2 p k) + broadcastTo S5000x64 b hb (ix2 p k)) (Ideal.ofBits .f32 0x00000000#32) = _
  rw [Cert.LibMatmulNN.matmul_nn_apply dot_S5000x64_S64x64_S5000x64_1_0_0_1_n_n rfl rfl rfl rfl rfl rfl none _ _ p k,
    broadcastTo_1b_ab_apply]
  rfl

/-- The last projection on a block, at `(p, q)`: row `p` times the one column, plus the bias. -/
theorem last_apply (A : FVec Ideal S5000x64 .f32) (w : FVec Ideal S64x1 .f32) (b : FVec Ideal S1x1 .f32)
    (h1 : FTy.bits .bf16 < FTy.bits .f32) (hb : S1x1.Broadcasts S5000x1) (p : Fin 5000) (q : Fin 1) :
    addf (matmul dot_S5000x64_S64x1_S5000x1_1_0_0_1_n_n none (truncf .bf16 A h1) (truncf .bf16 w h1)
        (constant S5000x1 .f32 0x00000000#32)) (broadcastTo S5000x1 b hb) (ix2 p q)
    = rowTimesCol (fun k' => A (ix2 p k')) w + b (ix2 0 0) := by
  obtain rfl : q = 0 := Subsingleton.elim _ _
  show matmul dot_S5000x64_S64x1_S5000x1_1_0_0_1_n_n none (truncf .bf16 A h1) (truncf .bf16 w h1)
        (constant S5000x1 .f32 0x00000000#32) (ix2 p 0) + broadcastTo S5000x1 b hb (ix2 p 0) = _
  rw [Cert.LibMatmulNN.matmul_nn_apply dot_S5000x64_S64x1_S5000x1_1_0_0_1_n_n rfl rfl rfl rfl rfl rfl none _ _ p 0,
    broadcastTo_1b_ab_apply]
  rfl

/-- The body's arithmetic at `(p, q)` of the block: the head on row `p` of the features' block. -/
theorem pay_apply (x0 : Vec Ideal S5000x64 .f32) (x1 : Vec Ideal S64x64 .f32) (x2 : Vec Ideal S1x64 .f32)
    (x3 : Vec Ideal S64x64 .f32) (x4 : Vec Ideal S1x64 .f32) (x5 : Vec Ideal S64x1 .f32) (x6 : Vec Ideal S1x1 .f32)
    (p : Fin 5000) (q : Fin 1) :
    k4_pay1 x0 x1 x2 x3 x4 x5 x6 (ix2 p q) = rowHead (fun k => x0 (ix2 p k)) x1 x2 x3 x4 x5 x6 := by
  unfold k4_pay1
  simp only [shapeCast_self]
  refine (last_apply _ x5 x6 _ _ p q).trans ?_
  unfold rowHead
  congr 2
  funext k
  refine (layer_apply _ x3 x4 _ _ p k).trans ?_
  congr 2
  funext k'
  exact layer_apply x0 x1 x2 _ _ p k'

/-- The block indices over the grid: the features' and the result's blocks are at row-block `t`; every resident
    operand's one block is the whole operand. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of the features' block at point `t` is row `5000·t + p` of the array. -/
theorem xblk_apply (c : Dev nD) (t : Fin cfg4.N) (p : Fin 5000) (k : Fin 64) (n : Fin 100000)
    (hn : n.val = 5000 * t.val + p.val) :
    (iblk4 V c 0 t : Vec Ideal S5000x64 .f32) (ix2 p k) = (V c main_v58 : S100000x64.Idx → EReal) (ix2 n k) := by
  obtain ⟨e0, e1, -⟩ := idx_facts t
  unfold iblk4
  rw [View.read_apply]
  show V c main_v58 _ = V c main_v58 _
  congr 1
  funext a
  apply Fin.ext
  match a with
  | ⟨0, _⟩ => show win4_0.index t (0 : Fin 2) * 5000 + 1 * p.val = n.val; rw [e0, hn]; omega
  | ⟨1, _⟩ => show win4_0.index t (1 : Fin 2) * 64 + 1 * k.val = k.val; rw [e1]; omega

/-- A resident operand's block at any point is the operand. -/
theorem w1blk (c : Dev nD) (t : Fin cfg4.N) : (iblk4 V c 1 t : Vec Ideal S64x64 .f32) = (V c main_arg6 : S64x64.Idx → EReal) := by
  obtain ⟨-, -, e0, e1, -⟩ := idx_facts t
  funext i
  unfold iblk4
  rw [View.read_apply]
  show V c main_arg6 _ = V c main_arg6 _
  congr 1
  funext a
  apply Fin.ext
  match a with
  | ⟨0, _⟩ => show win4_1.index t (0 : Fin 2) * 64 + 1 * (i 0).val = (i 0).val; rw [e0]; omega
  | ⟨1, _⟩ => show win4_1.index t (1 : Fin 2) * 64 + 1 * (i 1).val = (i 1).val; rw [e1]; omega

theorem b1blk (c : Dev nD) (t : Fin cfg4.N) : (iblk4 V c 2 t : Vec Ideal S1x64 .f32) = (V c main_v59 : S1x64.Idx → EReal) := by
  obtain ⟨-, -, -, -, e0, e1, -⟩ := idx_facts t
  funext i
  unfold iblk4
  rw [View.read_apply]
  show V c main_v59 _ = V c main_v59 _
  congr 1
  funext a
  apply Fin.ext
  match a with
  | ⟨0, _⟩ => show win4_2.index t (0 : Fin 2) * 1 + 1 * (i 0).val = (i 0).val; rw [e0]; omega
  | ⟨1, _⟩ => show win4_2.index t (1 : Fin 2) * 64 + 1 * (i 1).val = (i 1).val; rw [e1]; omega

theorem w2blk (c : Dev nD) (t : Fin cfg4.N) : (iblk4 V c 3 t : Vec Ideal S64x64 .f32) = (V c main_arg8 : S64x64.Idx → EReal) := by
  obtain ⟨-, -, -, -, -, -, e0, e1, -⟩ := idx_facts t
  funext i
  unfold iblk4
  rw [View.read_apply]
  show V c main_arg8 _ = V c main_arg8 _
  congr 1
  funext a
  apply Fin.ext
  match a with
  | ⟨0, _⟩ => show win4_3.index t (0 : Fin 2) * 64 + 1 * (i 0).val = (i 0).val; rw [e0]; omega
  | ⟨1, _⟩ => show win4_3.index t (1 : Fin 2) * 64 + 1 * (i 1).val = (i 1).val; rw [e1]; omega

theorem b2blk (c : Dev nD) (t : Fin cfg4.N) : (iblk4 V c 4 t : Vec Ideal S1x64 .f32) = (V c main_v60 : S1x64.Idx → EReal) := by
  obtain ⟨-, -, -, -, -, -, -, -, e0, e1, -⟩ := idx_facts t
  funext i
  unfold iblk4
  rw [View.read_apply]
  show V c main_v60 _ = V c main_v60 _
  congr 1
  funext a
  apply Fin.ext
  match a with
  | ⟨0, _⟩ => show win4_4.index t (0 : Fin 2) * 1 + 1 * (i 0).val = (i 0).val; rw [e0]; omega
  | ⟨1, _⟩ => show win4_4.index t (1 : Fin 2) * 64 + 1 * (i 1).val = (i 1).val; rw [e1]; omega

theorem w3blk (c : Dev nD) (t : Fin cfg4.N) : (iblk4 V c 5 t : Vec Ideal S64x1 .f32) = (V c main_arg10 : S64x1.Idx → EReal) := by
  obtain ⟨-, -, -, -, -, -, -, -, -, -, e0, e1, -⟩ := idx_facts t
  funext i
  unfold iblk4
  rw [View.read_apply]
  show V c main_arg10 _ = V c main_arg10 _
  congr 1
  funext a
  apply Fin.ext
  match a with
  | ⟨0, _⟩ => show win4_5.index t (0 : Fin 2) * 64 + 1 * (i 0).val = (i 0).val; rw [e0]; omega
  | ⟨1, _⟩ => show win4_5.index t (1 : Fin 2) * 1 + 1 * (i 1).val = (i 1).val; rw [e1]; omega

theorem b3blk (c : Dev nD) (t : Fin cfg4.N) : (iblk4 V c 6 t : Vec Ideal S1x1 .f32) = (V c main_v61 : S1x1.Idx → EReal) := by
  obtain ⟨-, -, -, -, -, -, -, -, -, -, -, -, e0, e1, -⟩ := idx_facts t
  funext i
  unfold iblk4
  rw [View.read_apply]
  show V c main_v61 _ = V c main_v61 _
  congr 1
  funext a
  apply Fin.ext
  match a with
  | ⟨0, _⟩ => show win4_6.index t (0 : Fin 2) * 1 + 1 * (i 0).val = (i 0).val; rw [e0]; omega
  | ⟨1, _⟩ => show win4_6.index t (1 : Fin 2) * 1 + 1 * (i 1).val = (i 1).val; rw [e1]; omega

/-- WHAT POINT `t` WRITES BACK is block `t` of the head of the features. -/
theorem flushed_eq (c : Dev nD) (t : Fin cfg4.N) :
    (dat4 V c).flushed 7 t = ((cfg4.win 7).blk t).view.read (Elt Ideal)
      (head (R := 100000) (V c main_v58) (V c main_arg6) (V c main_v59) (V c main_arg8) (V c main_v60) (V c main_arg10) (V c main_v61)) := by
  show (cfg4.win 7).cut (grid4.coords t) ((dat4 V c).after 7 t) = _
  rw [after4_7]
  unfold out4_7
  rw [View.canon_unit_zero hz]
  simp only [View.ld_unit_zero (S := S5000x64) hz, View.ld_unit_zero (S := S64x64) hz, View.ld_unit_zero (S := S1x64) hz,
    View.ld_unit_zero (S := S64x1) hz, View.ld_unit_zero (S := S1x1) hz]
  obtain ⟨-, -, -, -, -, -, -, -, -, -, -, -, -, -, e4, e5⟩ := idx_facts t
  funext j
  obtain ⟨p, q, rfl⟩ : ∃ (p : Fin 5000) (q : Fin 1), j = (ix2 p q : S5000x1.Idx) := ⟨j 0, j 1, eq_ix2 j⟩
  rw [View.read_apply]
  have hp : p.val < 5000 := p.isLt
  have hq : q.val = 0 := by omega
  have ht : t.val < 20 := by have h1 := t.isLt; have hN : cfg4.N = 20 := N_4; omega
  have hemb : ((cfg4.win 7).blk t).view.emb (ix2 p q : S5000x1.Idx)
      = (ix2 (⟨5000 * t.val + p.val, by omega⟩ : Fin 100000) q : S100000x1.Idx) := by
    funext a
    apply Fin.ext
    match a with
    | ⟨0, _⟩ => show win4_7.index t (0 : Fin 2) * 5000 + 1 * p.val = 5000 * t.val + p.val; rw [e4]; omega
    | ⟨1, _⟩ => show win4_7.index t (1 : Fin 2) * 1 + 1 * q.val = q.val; rw [e5]; omega
  show k4_pay1 (iblk4 V c 0 t) (iblk4 V c 1 t) (iblk4 V c 2 t) (iblk4 V c 3 t) (iblk4 V c 4 t) (iblk4 V c 5 t) (iblk4 V c 6 t) (ix2 p q)
    = head (R := 100000) (V c main_v58) (V c main_arg6) (V c main_v59) (V c main_arg8) (V c main_v60) (V c main_arg10) (V c main_v61) _
  rw [hemb, head_apply, pay_apply, w1blk, b1blk, w2blk, b2blk, w3blk, b3blk]
  congr 1
  funext k
  exact xblk_apply V c t p k _ rfl

/-- Every row of the result is in the block of the point that owns it. -/
theorem covered (i : S100000x1.Idx) :
    ∃ t : Fin cfg4.N, (cfg4.win 7).flush t = true ∧ i ∈ ((cfg4.win 7).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, -, -, -, -, -, -, -, -, -, -, e4, e5⟩ := idx_facts t
  have htv : t.val = (i 0).val / 5000 := rfl
  refine ⟨t, flush4_7 t, ?_⟩
  show i ∈ ((View.whole main_v62).slice (win4_7.rect t)).set
  rw [View.set_slice_whole, Rect.mem_set_unit]
  intro a
  match a with
  | ⟨0, _⟩ => show win4_7.index t (0 : Fin 2) * 5000 ≤ (i 0).val ∧ (i 0).val < win4_7.index t (0 : Fin 2) * 5000 + 5000
              rw [e4, htv]; omega
  | ⟨1, _⟩ => show win4_7.index t (1 : Fin 2) * 1 ≤ (i 1).val ∧ (i 1).val < win4_7.index t (1 : Fin 2) * 1 + 1
              rw [e5]; omega

/-- THE RESULT ARRAY after the region: the head of the features, every operand as the region found it. -/
theorem final (c : Dev nD) :
    (dat4 V c).arrAt 7 cfg4.N = head (R := 100000) (V c main_v58) (V c main_arg6) (V c main_v59) (V c main_arg8) (V c main_v60) (V c main_arg10) (V c main_v61) :=
  (dat4 V c).arrAt_eq_of_cover 7 _ (fun t _ => flushed_eq V c t) covered

end Cert.KernelIdeal.Head4

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefStages.lean ====
/-
  The reference program's stages, read against the row-by-row specification (`Cert.Spec`), on the extended reals.

  * The host's matrix product of a `[100000, 64]` array by a `[64, 64]` matrix is the projection of every row
    (`dot_eq_project`): its entry `(n, j)` is the sum over `k` of `X(n, k) · W(k, j)`, in whatever order the host adds.
  * Adding a vector broadcast along the rows and taking the maximum with an array of zeros is the bias stage on every
    row (`hostBiasRelu_eq`).
  * The three-layer head (`hostHead_eq`) is those two, twice, then the product with the `[64, 1]` column and its bias.
  * Between the regular stages both programs gather rows of the projected features at the edges' sources, scale each by
    the edge's normalisation and add them up at the edges' targets. That chain is the same operations in both programs;
    it is named here as ONE function of the projected features and of the three edge arrays (`aggregate`) and never
    opened: the proof only needs that both programs feed it equal arrays.
-/
import proofs.«179422_j90701119357780_1_alg».proof.Proof.Gen.ReferenceIdeal.Read
import proofs.«179422_j90701119357780_1_alg».proof.Proof.LibHostMatmulNN
import proofs.«179422_j90701119357780_1_alg».proof.Proof.Spec
import Idealize.ShloMosaic.Lib.Pipeline.Value
import Idealize.ShloMosaic.Lib.ValueIdx

set_option maxRecDepth 16384

noncomputable section

open scoped BigOperators

namespace Cert.ReferenceIdeal.Stages

open Cert.ReferenceIdeal Cert.ReferenceIdeal.Gen Cert.ReferenceIdeal.Read Cert.Spec Idealize.ShloMosaic Idealize.ShloMosaic.ValueIdx

/-- The host's matrix product by a `[64, 64]` matrix is the projection of every row. -/
theorem dot_eq_project (X : FVec Ideal S100000x64 .f32) (W : FVec Ideal S64x64 .f32) :
    Host.dotGeneral (F := Ideal) dot_S100000x64_S64x64_S100000x64_1_0_0_1_n_n none X W = project (R := 100000) X W := by
  funext i
  obtain ⟨n, j, rfl⟩ : ∃ (n : Fin 100000) (j : Fin 64), i = (ix2 n j : S100000x64.Idx) := ⟨i 0, i 1, eq_ix2 i⟩
  rw [project_apply]
  exact Cert.LibHostMatmulNN.hostDot_nn_apply dot_S100000x64_S64x64_S100000x64_1_0_0_1_n_n rfl rfl rfl rfl rfl rfl none X W n j

/-- A vector broadcast to the one row of a `[1, 64]` array is that layout of the vector. -/
theorem bcastRow_eq (b : FVec Ideal S64 .f32) :
    broadcastInDim S1x64 ![1] bcast_S64_S1x64_1 b = rowVec b := by
  funext i
  obtain ⟨u, j, rfl⟩ : ∃ (u : Fin 1) (j : Fin 64), i = (ix2 u j : S1x64.Idx) := ⟨i 0, i 1, eq_ix2 i⟩
  exact broadcastInDim_apply _ bcast_S64_S1x64_1 b (ix2 u j) (ix1 j) (fun a => match a with
    | ⟨0, _⟩ => by show j.val = if (64 : Nat) = 1 then 0 else j.val; rw [if_neg (by decide)])

/-- A vector broadcast to the one cell of a `[1, 1]` array is that layout of the vector. -/
theorem bcastCell_eq (b : FVec Ideal S1 .f32) :
    broadcastInDim S1x1 ![1] bcast_S1_S1x1_1 b = cell b := by
  funext i
  obtain ⟨u, j, rfl⟩ : ∃ (u : Fin 1) (j : Fin 1), i = (ix2 u j : S1x1.Idx) := ⟨i 0, i 1, eq_ix2 i⟩
  have hj : j.val = 0 := by omega
  exact broadcastInDim_apply _ bcast_S1_S1x1_1 b (ix2 u j) (ix1 j) (fun a => match a with
    | ⟨0, _⟩ => by show j.val = if (1 : Nat) = 1 then 0 else j.val; rw [if_pos rfl]; exact hj)

/-- Adding a bias row broadcast along the rows and taking the maximum with zeros is the bias stage on every row. -/
theorem hostBiasRelu_eq (A : FVec Ideal S100000x64 .f32) (b : FVec Ideal S1x64 .f32) :
    maximumf (F := Ideal) (addf (F := Ideal) A (broadcastInDim S100000x64 ![0, 1] bcast_S1x64_S100000x64_0_1 b))
      (broadcastInDim S100000x64 ![] bcast_S_S100000x64 (constant (F := Ideal) S_ .f32 0x00000000#32))
    = biasRelu (R := 100000) A b := by
  funext i
  obtain ⟨n, j, rfl⟩ : ∃ (n : Fin 100000) (j : Fin 64), i = (ix2 n j : S100000x64.Idx) := ⟨i 0, i 1, eq_ix2 i⟩
  rw [biasRelu_apply]
  show max (A (ix2 n j) + broadcastInDim S100000x64 ![0, 1] bcast_S1x64_S100000x64_0_1 b (ix2 n j))
      (broadcastInDim S100000x64 ![] bcast_S_S100000x64 (constant (F := Ideal) S_ .f32 0x00000000#32) (ix2 n j)) = _
  rw [broadcastInDim_apply _ bcast_S1x64_S100000x64_0_1 b (ix2 n j) (ix2 (0 : Fin 1) j) (fun a => match a with
      | ⟨0, _⟩ => by show (0 : Nat) = if (1 : Nat) = 1 then 0 else n.val; rw [if_pos rfl]
      | ⟨1, _⟩ => by show j.val = if (64 : Nat) = 1 then 0 else j.val; rw [if_neg (by decide)]),
    broadcastInDim_apply _ bcast_S_S100000x64 (constant (F := Ideal) S_ .f32 0x00000000#32) (ix2 n j) ix0 (fun a => a.elim0)]
  rfl

/-- The product with the `[64, 1]` column plus the bias cell broadcast down the column, after two hidden layers: the head. -/
theorem hostHead_eq (H : FVec Ideal S100000x64 .f32) (W1 : FVec Ideal S64x64 .f32)
    (b1 : FVec Ideal S1x64 .f32) (W2 : FVec Ideal S64x64 .f32)
    (b2 : FVec Ideal S1x64 .f32) (W3 : FVec Ideal S64x1 .f32)
    (b3 : FVec Ideal S1x1 .f32) :
    addf (F := Ideal) (Host.dotGeneral (F := Ideal) (φ₁ := .f32) (φ₂ := .f32) dot_S100000x64_S64x1_S100000x1_1_0_0_1_n_n none
        (biasRelu (R := 100000) (project (R := 100000) (biasRelu (R := 100000) (project (R := 100000) H W1) b1) W2) b2) W3)
      (broadcastInDim S100000x1 ![0, 1] bcast_S1x1_S100000x1_0_1 b3)
    = head (R := 100000) H W1 b1 W2 b2 W3 b3 := by
  funext i
  obtain ⟨n, q, rfl⟩ : ∃ (n : Fin 100000) (q : Fin 1), i = (ix2 n q : S100000x1.Idx) := ⟨i 0, i 1, eq_ix2 i⟩
  obtain rfl : q = 0 := Subsingleton.elim _ _
  rw [head_apply]
  show Host.dotGeneral (F := Ideal) (φ₁ := .f32) (φ₂ := .f32) dot_S100000x64_S64x1_S100000x1_1_0_0_1_n_n none _ W3 (ix2 n 0)
      + broadcastInDim S100000x1 ![0, 1] bcast_S1x1_S100000x1_0_1 b3 (ix2 n 0) = _
  rw [Cert.LibHostMatmulNN.hostDot_nn_apply dot_S100000x64_S64x1_S100000x1_1_0_0_1_n_n rfl rfl rfl rfl rfl rfl none _ W3 n 0,
    broadcastInDim_apply _ bcast_S1x1_S100000x1_0_1 b3 (ix2 n (0 : Fin 1)) (ix2 (0 : Fin 1) (0 : Fin 1)) (fun a => match a with
      | ⟨0, _⟩ => by show (0 : Nat) = if (1 : Nat) = 1 then 0 else n.val; rw [if_pos rfl]
      | ⟨1, _⟩ => by show (0 : Nat) = if (1 : Nat) = 1 then 0 else (0 : Nat); rw [if_pos rfl])]
  rfl

/-- The irregular stage both programs share, as ONE function: rows of the projected features `T` gathered at the edges'
    sources `s` (a negative index counted from the end), each scaled by its edge's normalisation `nrm`, and added up at the
    edges' targets `d` into an array of zeros. -/
def aggregate (T : FVec Ideal S100000x64 .f32) (s d : IVec S1700000 32)
    (nrm : FVec Ideal S1700000 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (mulf (F := Ideal) (Host.gather gather_S100000x64_S1700000x1_S1700000x64_1_0_n_n_0_1_164 T
        (broadcastInDim S1700000x1 ![0] bcast_S1700000_S1700000x1_0
          (select (cmpi .slt s (broadcastInDim S1700000 ![] bcast_S_S1700000 (constantI S_ 32 0#32)))
            (addi s (broadcastInDim S1700000 ![] bcast_S_S1700000 (constantI S_ 32 100000#32))) s)))
      (broadcastInDim S1700000x64 ![0, 1] bcast_S1700000x1_S1700000x64_0_1
        (broadcastInDim S1700000x1 ![0] bcast_S1700000_S1700000x1_0 nrm)))

/-! ## The reference's stages -/

theorem v27_eq (x0 : (⟨S100000x64, .f32⟩ : BufTy).Contents (Elt Ideal)) (x2 : (⟨S64x64, .f32⟩ : BufTy).Contents (Elt Ideal)) : val_main_v27 (F := Ideal) x0 x2 = project (R := 100000) x0 x2 := by
  unfold val_main_v27; exact dot_eq_project _ _

theorem v40_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) :
    val_main_v40 (F := Ideal) x0 x1 x2 = aggregate (val_main_v27 (F := Ideal) x0 x2) (val_main_v3 (F := Ideal) x1) (val_main_v6 (F := Ideal) x1) (val_main_v26 (F := Ideal) x1) := rfl

theorem v44_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) :
    val_main_v44 (F := Ideal) x0 x1 x2 x3 = biasRelu (R := 100000) (val_main_v40 (F := Ideal) x0 x1 x2) (rowVec x3) := by
  unfold val_main_v44 val_main_v43 val_main_v42 val_main_v41 val_main_call0_v0 val_main_call0_cst
  rw [bcastRow_eq]; exact hostBiasRelu_eq _ _

theorem v45_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v45 (F := Ideal) x0 x1 x2 x3 x4 = project (R := 100000) (val_main_v44 (F := Ideal) x0 x1 x2 x3) x4 := by
  unfold val_main_v45; exact dot_eq_project _ _

theorem v58_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v58 (F := Ideal) x0 x1 x2 x3 x4 = aggregate (val_main_v45 (F := Ideal) x0 x1 x2 x3 x4) (val_main_v3 (F := Ideal) x1) (val_main_v6 (F := Ideal) x1) (val_main_v26 (F := Ideal) x1) := rfl

theorem v62_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v62 (F := Ideal) x0 x1 x2 x3 x4 x5 = biasRelu (R := 100000) (val_main_v58 (F := Ideal) x0 x1 x2 x3 x4) (rowVec x5) := by
  unfold val_main_v62 val_main_v61 val_main_v60 val_main_v59 val_main_call1_v0 val_main_call1_cst
  rw [bcastRow_eq]; exact hostBiasRelu_eq _ _

theorem v67_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v67 (F := Ideal) x0 x1 x2 x3 x4 x5 x6 x7 = biasRelu (R := 100000) (project (R := 100000) (val_main_v62 (F := Ideal) x0 x1 x2 x3 x4 x5) x6) (rowVec x7) := by
  unfold val_main_v67 val_main_v66 val_main_v65 val_main_v64 val_main_call2_v0 val_main_call2_cst val_main_v63
  rw [bcastRow_eq, dot_eq_project]; exact hostBiasRelu_eq _ _

theorem v72_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v72 (F := Ideal) x0 x1 x2 x3 x4 x5 x6 x7 x8 x9 = biasRelu (R := 100000) (project (R := 100000) (val_main_v67 (F := Ideal) x0 x1 x2 x3 x4 x5 x6 x7) x8) (rowVec x9) := by
  unfold val_main_v72 val_main_v71 val_main_v70 val_main_v69 val_main_call3_v0 val_main_call3_cst val_main_v68
  rw [bcastRow_eq, dot_eq_project]; exact hostBiasRelu_eq _ _

theorem v76_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x1, .f32⟩ : BufTy).Contents (Elt Ideal)) (x11 : (⟨S1, .f32⟩ : BufTy).Contents (Elt Ideal)) :
    val_main_v76 (F := Ideal) x0 x1 x2 x3 x4 x5 x6 x7 x8 x9 x10 x11 = head (R := 100000) (val_main_v62 (F := Ideal) x0 x1 x2 x3 x4 x5) x6 (rowVec x7) x8 (rowVec x9) x10 (cell x11) := by
  unfold val_main_v76 val_main_v75 val_main_v74 val_main_v73
  rw [v72_eq, v67_eq, bcastCell_eq]
  exact hostHead_eq _ _ _ _ _ _ _

end Cert.ReferenceIdeal.Stages

end
-- ==== Proof.Stretch.lean ====
/-
  What the buffers hold after each stretch of host operations of the tiled program, from ANY contents `U` at the
  stretch's start, each as a function of the few buffers it depends on:

  * the first stretch builds the edge arrays — sources and targets with a self-loop appended per node, and each edge's
    normalisation `deg(src)^(-1/2) · deg(dst)^(-1/2)` — from the edge list alone; they are the reference's own
    operations on the same argument, so each is the reference's stage of that name applied to the edge list;
  * the stretch after a projection gathers, scales and adds up (the function `aggregate` of the projected features and
    the three edge arrays) and lays the layer's bias out as one row;
  * the stretch before the head lays the head's three biases out as rows and a cell; the last stretch drops the unit
    axis of the head's column;
  * every other buffer a stretch does not write keeps what it held.
-/
import proofs.«179422_j90701119357780_1_alg».proof.Proof.Gen.KernelIdeal.Launch
import proofs.«179422_j90701119357780_1_alg».proof.Proof.RefStages
import Idealize.ShloMosaic.Lib.StableHlo.Run
import Idealize.ShloMosaic.Lib.ValueLayout

set_option maxRecDepth 16384

noncomputable section

namespace Cert.KernelIdeal.Stretch

open Cert.KernelIdeal Cert.KernelIdeal.Gen Cert.Spec
open Idealize.ShloMosaic Idealize.ShloMosaic.TcCoe Idealize.SL.Sem Idealize.ShloMosaic.StableHlo Idealize.ShloMosaic.ValueIdx
open Cert.ReferenceIdeal.Read (val_main_v3 val_main_v6 val_main_v26)
open Cert.ReferenceIdeal.Stages (aggregate)

variable (U : Valuation τ sig (Elt Ideal))

/-! ## The edge arrays, from the edge list -/

theorem s0_v3 : after hostOps0 U (Proc.devRef .tc main_v3) = val_main_v3 (F := Ideal) (U (Proc.devRef .tc main_arg1)) := by
  dsimp only [hostOps0]; after_results_simp <;> rfl

theorem s0_v6 : after hostOps0 U (Proc.devRef .tc main_v6) = val_main_v6 (F := Ideal) (U (Proc.devRef .tc main_arg1)) := by
  dsimp only [hostOps0]; after_results_simp <;> rfl

theorem s0_v26 : after hostOps0 U (Proc.devRef .tc main_v26) = val_main_v26 (F := Ideal) (U (Proc.devRef .tc main_arg1)) := by
  dsimp only [hostOps0]; after_results_simp <;> rfl

/-! ## After a projection: gather, scale, add up; the bias as a row -/

theorem s1_v40 : after hostOps1 U (Proc.devRef .tc main_v40)
    = aggregate (U (Proc.devRef .tc main_v27)) (U (Proc.devRef .tc main_v3)) (U (Proc.devRef .tc main_v6)) (U (Proc.devRef .tc main_v26)) := by
  dsimp only [hostOps1]; after_results_simp <;> rfl

theorem s3_v56 : after hostOps3 U (Proc.devRef .tc main_v56)
    = aggregate (U (Proc.devRef .tc main_v43)) (U (Proc.devRef .tc main_v3)) (U (Proc.devRef .tc main_v6)) (U (Proc.devRef .tc main_v26)) := by
  dsimp only [hostOps3]; after_results_simp <;> rfl

/-- A `[64]` vector reshaped to `[1, 64]` is the vector laid out as one row. -/
theorem reshape_row (b : S64.Idx → EReal) (h : S64.ShapeCasts S1x64) : shapeCast S1x64 b h = rowVec b := by
  funext i
  obtain ⟨u, j, rfl⟩ : ∃ (u : Fin 1) (j : Fin 64), i = (ix2 u j : S1x64.Idx) := ⟨i 0, i 1, eq_ix2 i⟩
  exact shapeCast_a_1a_apply b h u j

/-- A `[1]` vector reshaped to `[1, 1]` is the vector laid out as one cell. -/
theorem reshape_cell (b : S1.Idx → EReal) (h : S1.ShapeCasts S1x1) : shapeCast S1x1 b h = cell b := by
  funext i
  obtain ⟨u, j, rfl⟩ : ∃ (u : Fin 1) (j : Fin 1), i = (ix2 u j : S1x1.Idx) := ⟨i 0, i 1, eq_ix2 i⟩
  exact shapeCast_a_1a_apply b h u j

theorem s1_v41 : after hostOps1 U (Proc.devRef .tc main_v41) = rowVec (U (Proc.devRef .tc main_arg3)) := by
  dsimp only [hostOps1]; after_results_simp
  exact reshape_row _ _

theorem s3_v57 : after hostOps3 U (Proc.devRef .tc main_v57) = rowVec (U (Proc.devRef .tc main_arg5)) := by
  dsimp only [hostOps3]; after_results_simp
  exact reshape_row _ _

theorem s4_v59 : after hostOps4 U (Proc.devRef .tc main_v59) = rowVec (U (Proc.devRef .tc main_arg7)) := by
  dsimp only [hostOps4]; after_results_simp
  exact reshape_row _ _

theorem s4_v60 : after hostOps4 U (Proc.devRef .tc main_v60) = rowVec (U (Proc.devRef .tc main_arg9)) := by
  dsimp only [hostOps4]; after_results_simp
  exact reshape_row _ _

theorem s4_v61 : after hostOps4 U (Proc.devRef .tc main_v61) = cell (U (Proc.devRef .tc main_arg11)) := by
  dsimp only [hostOps4]; after_results_simp
  exact reshape_cell _ _

/-- The last stretch drops the unit axis of the head's column. -/
theorem s5_v63 : after hostOps5 U (Proc.devRef .tc main_v63)
    = shapeCast S100000 (U (Proc.devRef .tc main_v62)) shapeCasts_S100000x1_S100000 := by
  dsimp only [hostOps5]; after_results_simp <;> rfl

/-! ## What a stretch does not write -/

theorem keep0_arg0 : after hostOps0 U (Proc.devRef .tc main_arg0) = U (Proc.devRef .tc main_arg0) := by
  dsimp only [hostOps0]; after_results_simp
theorem keep0_arg2 : after hostOps0 U (Proc.devRef .tc main_arg2) = U (Proc.devRef .tc main_arg2) := by
  dsimp only [hostOps0]; after_results_simp
theorem keep0_arg3 : after hostOps0 U (Proc.devRef .tc main_arg3) = U (Proc.devRef .tc main_arg3) := by
  dsimp only [hostOps0]; after_results_simp
theorem keep0_arg4 : after hostOps0 U (Proc.devRef .tc main_arg4) = U (Proc.devRef .tc main_arg4) := by
  dsimp only [hostOps0]; after_results_simp
theorem keep0_arg5 : after hostOps0 U (Proc.devRef .tc main_arg5) = U (Proc.devRef .tc main_arg5) := by
  dsimp only [hostOps0]; after_results_simp
theorem keep0_arg6 : after hostOps0 U (Proc.devRef .tc main_arg6) = U (Proc.devRef .tc main_arg6) := by
  dsimp only [hostOps0]; after_results_simp
theorem keep0_arg7 : after hostOps0 U (Proc.devRef .tc main_arg7) = U (Proc.devRef .tc main_arg7) := by
  dsimp only [hostOps0]; after_results_simp
theorem keep0_arg8 : after hostOps0 U (Proc.devRef .tc main_arg8) = U (Proc.devRef .tc main_arg8) := by
  dsimp only [hostOps0]; after_results_simp
theorem keep0_arg9 : after hostOps0 U (Proc.devRef .tc main_arg9) = U (Proc.devRef .tc main_arg9) := by
  dsimp only [hostOps0]; after_results_simp
theorem keep0_arg10 : after hostOps0 U (Proc.devRef .tc main_arg10) = U (Proc.devRef .tc main_arg10) := by
  dsimp only [hostOps0]; after_results_simp
theorem keep0_arg11 : after hostOps0 U (Proc.devRef .tc main_arg11) = U (Proc.devRef .tc main_arg11) := by
  dsimp only [hostOps0]; after_results_simp
theorem keep1_v3 : after hostOps1 U (Proc.devRef .tc main_v3) = U (Proc.devRef .tc main_v3) := by
  dsimp only [hostOps1]; after_results_simp
theorem keep1_v6 : after hostOps1 U (Proc.devRef .tc main_v6) = U (Proc.devRef .tc main_v6) := by
  dsimp only [hostOps1]; after_results_simp
theorem keep1_v26 : after hostOps1 U (Proc.devRef .tc main_v26) = U (Proc.devRef .tc main_v26) := by
  dsimp only [hostOps1]; after_results_simp
theorem keep1_arg4 : after hostOps1 U (Proc.devRef .tc main_arg4) = U (Proc.devRef .tc main_arg4) := by
  dsimp only [hostOps1]; after_results_simp
theorem keep1_arg5 : after hostOps1 U (Proc.devRef .tc main_arg5) = U (Proc.devRef .tc main_arg5) := by
  dsimp only [hostOps1]; after_results_simp
theorem keep1_arg6 : after hostOps1 U (Proc.devRef .tc main_arg6) = U (Proc.devRef .tc main_arg6) := by
  dsimp only [hostOps1]; after_results_simp
theorem keep1_arg7 : after hostOps1 U (Proc.devRef .tc main_arg7) = U (Proc.devRef .tc main_arg7) := by
  dsimp only [hostOps1]; after_results_simp
theorem keep1_arg8 : after hostOps1 U (Proc.devRef .tc main_arg8) = U (Proc.devRef .tc main_arg8) := by
  dsimp only [hostOps1]; after_results_simp
theorem keep1_arg9 : after hostOps1 U (Proc.devRef .tc main_arg9) = U (Proc.devRef .tc main_arg9) := by
  dsimp only [hostOps1]; after_results_simp
theorem keep1_arg10 : after hostOps1 U (Proc.devRef .tc main_arg10) = U (Proc.devRef .tc main_arg10) := by
  dsimp only [hostOps1]; after_results_simp
theorem keep1_arg11 : after hostOps1 U (Proc.devRef .tc main_arg11) = U (Proc.devRef .tc main_arg11) := by
  dsimp only [hostOps1]; after_results_simp
theorem keep3_arg6 : after hostOps3 U (Proc.devRef .tc main_arg6) = U (Proc.devRef .tc main_arg6) := by
  dsimp only [hostOps3]; after_results_simp
theorem keep3_arg7 : after hostOps3 U (Proc.devRef .tc main_arg7) = U (Proc.devRef .tc main_arg7) := by
  dsimp only [hostOps3]; after_results_simp
theorem keep3_arg8 : after hostOps3 U (Proc.devRef .tc main_arg8) = U (Proc.devRef .tc main_arg8) := by
  dsimp only [hostOps3]; after_results_simp
theorem keep3_arg9 : after hostOps3 U (Proc.devRef .tc main_arg9) = U (Proc.devRef .tc main_arg9) := by
  dsimp only [hostOps3]; after_results_simp
theorem keep3_arg10 : after hostOps3 U (Proc.devRef .tc main_arg10) = U (Proc.devRef .tc main_arg10) := by
  dsimp only [hostOps3]; after_results_simp
theorem keep3_arg11 : after hostOps3 U (Proc.devRef .tc main_arg11) = U (Proc.devRef .tc main_arg11) := by
  dsimp only [hostOps3]; after_results_simp
theorem keep4_v58 : after hostOps4 U (Proc.devRef .tc main_v58) = U (Proc.devRef .tc main_v58) := by
  dsimp only [hostOps4]; after_results_simp
theorem keep4_arg6 : after hostOps4 U (Proc.devRef .tc main_arg6) = U (Proc.devRef .tc main_arg6) := by
  dsimp only [hostOps4]; after_results_simp
theorem keep4_arg8 : after hostOps4 U (Proc.devRef .tc main_arg8) = U (Proc.devRef .tc main_arg8) := by
  dsimp only [hostOps4]; after_results_simp
theorem keep4_arg10 : after hostOps4 U (Proc.devRef .tc main_arg10) = U (Proc.devRef .tc main_arg10) := by
  dsimp only [hostOps4]; after_results_simp

end Cert.KernelIdeal.Stretch

end
-- ==== Proof.Walk.lean ====
/-
  The tiled program's result, walked from the launch memory to the last boundary, against the reference's stages.

  At each boundary the buffers that matter hold the reference's stage of the same name applied to the arguments:
  the edge arrays after the first stretch; the first projection after region 0; its aggregation and the bias row after
  the next stretch; the first layer's activations after region 1; the second projection after region 2; its
  aggregation after the next stretch; the second layer's activations after region 3; the head's column after region 4;
  and the result after the last stretch. A region's step is its whole-array lemma (the projection, the bias stage or
  the head of every row) at the region's entry contents; a stretch's step is the stretch's function of the buffers it
  reads; a buffer nothing has written since an earlier boundary still holds what it held there.
-/
import proofs.«179422_j90701119357780_1_alg».proof.Proof.Gen.KernelIdeal.Frame
import proofs.«179422_j90701119357780_1_alg».proof.Proof.Proj0
import proofs.«179422_j90701119357780_1_alg».proof.Proof.Bias1
import proofs.«179422_j90701119357780_1_alg».proof.Proof.Proj2
import proofs.«179422_j90701119357780_1_alg».proof.Proof.Bias3
import proofs.«179422_j90701119357780_1_alg».proof.Proof.Head4
import proofs.«179422_j90701119357780_1_alg».proof.Proof.Stretch
import proofs.«179422_j90701119357780_1_alg».proof.Proof.RefStages

set_option maxRecDepth 16384

noncomputable section

namespace Cert.KernelIdeal.Walk

open Cert.KernelIdeal Cert.KernelIdeal.Gen Cert.Spec
open Idealize.ShloMosaic Idealize.ShloMosaic.TcCoe Idealize.SL.Sem Idealize.ShloMosaic.StableHlo
open Cert.ReferenceIdeal.Read (val_main_v3 val_main_v6 val_main_v26 val_main_v27 val_main_v40 val_main_v44 val_main_v45
  val_main_v58 val_main_v62 val_main_v76 val_main_v77)

variable (m : (ℓ : Loc nD τ sig) → Buf (Elt Ideal) ℓ) (ρ : Dev nD → PrngReg) (c : Dev nD)

/-! ## After the first stretch: the arguments untouched, the edge arrays built -/

theorem w1_arg0 : W1 m ρ c (Proc.devRef .tc main_arg0) = (m ((c.tc : Thread nD τ).loc main_arg0)) := Stretch.keep0_arg0 (W0 m ρ c)
theorem w1_arg2 : W1 m ρ c (Proc.devRef .tc main_arg2) = (m ((c.tc : Thread nD τ).loc main_arg2)) := Stretch.keep0_arg2 (W0 m ρ c)
theorem w1_arg3 : W1 m ρ c (Proc.devRef .tc main_arg3) = (m ((c.tc : Thread nD τ).loc main_arg3)) := Stretch.keep0_arg3 (W0 m ρ c)
theorem w1_arg4 : W1 m ρ c (Proc.devRef .tc main_arg4) = (m ((c.tc : Thread nD τ).loc main_arg4)) := Stretch.keep0_arg4 (W0 m ρ c)
theorem w1_arg5 : W1 m ρ c (Proc.devRef .tc main_arg5) = (m ((c.tc : Thread nD τ).loc main_arg5)) := Stretch.keep0_arg5 (W0 m ρ c)
theorem w1_arg6 : W1 m ρ c (Proc.devRef .tc main_arg6) = (m ((c.tc : Thread nD τ).loc main_arg6)) := Stretch.keep0_arg6 (W0 m ρ c)
theorem w1_arg7 : W1 m ρ c (Proc.devRef .tc main_arg7) = (m ((c.tc : Thread nD τ).loc main_arg7)) := Stretch.keep0_arg7 (W0 m ρ c)
theorem w1_arg8 : W1 m ρ c (Proc.devRef .tc main_arg8) = (m ((c.tc : Thread nD τ).loc main_arg8)) := Stretch.keep0_arg8 (W0 m ρ c)
theorem w1_arg9 : W1 m ρ c (Proc.devRef .tc main_arg9) = (m ((c.tc : Thread nD τ).loc main_arg9)) := Stretch.keep0_arg9 (W0 m ρ c)
theorem w1_arg10 : W1 m ρ c (Proc.devRef .tc main_arg10) = (m ((c.tc : Thread nD τ).loc main_arg10)) := Stretch.keep0_arg10 (W0 m ρ c)
theorem w1_arg11 : W1 m ρ c (Proc.devRef .tc main_arg11) = (m ((c.tc : Thread nD τ).loc main_arg11)) := Stretch.keep0_arg11 (W0 m ρ c)

theorem w1_v3 : W1 m ρ c (Proc.devRef .tc main_v3) = val_main_v3 (F := Ideal) (m ((c.tc : Thread nD τ).loc main_arg1)) := Stretch.s0_v3 (W0 m ρ c)
theorem w1_v6 : W1 m ρ c (Proc.devRef .tc main_v6) = val_main_v6 (F := Ideal) (m ((c.tc : Thread nD τ).loc main_arg1)) := Stretch.s0_v6 (W0 m ρ c)
theorem w1_v26 : W1 m ρ c (Proc.devRef .tc main_v26) = val_main_v26 (F := Ideal) (m ((c.tc : Thread nD τ).loc main_arg1)) := Stretch.s0_v26 (W0 m ρ c)

/-! ## After region 0: the first projection -/

theorem w2_arg3 : W2 m ρ c (Proc.devRef .tc main_arg3) = (m ((c.tc : Thread nD τ).loc main_arg3)) := (W2_of_ne m ρ c main_arg3 (by decide)).trans (w1_arg3 m ρ c)
theorem w2_arg4 : W2 m ρ c (Proc.devRef .tc main_arg4) = (m ((c.tc : Thread nD τ).loc main_arg4)) := (W2_of_ne m ρ c main_arg4 (by decide)).trans (w1_arg4 m ρ c)
theorem w2_arg5 : W2 m ρ c (Proc.devRef .tc main_arg5) = (m ((c.tc : Thread nD τ).loc main_arg5)) := (W2_of_ne m ρ c main_arg5 (by decide)).trans (w1_arg5 m ρ c)
theorem w2_arg6 : W2 m ρ c (Proc.devRef .tc main_arg6) = (m ((c.tc : Thread nD τ).loc main_arg6)) := (W2_of_ne m ρ c main_arg6 (by decide)).trans (w1_arg6 m ρ c)
theorem w2_arg7 : W2 m ρ c (Proc.devRef .tc main_arg7) = (m ((c.tc : Thread nD τ).loc main_arg7)) := (W2_of_ne m ρ c main_arg7 (by decide)).trans (w1_arg7 m ρ c)
theorem w2_arg8 : W2 m ρ c (Proc.devRef .tc main_arg8) = (m ((c.tc : Thread nD τ).loc main_arg8)) := (W2_of_ne m ρ c main_arg8 (by decide)).trans (w1_arg8 m ρ c)
theorem w2_arg9 : W2 m ρ c (Proc.devRef .tc main_arg9) = (m ((c.tc : Thread nD τ).loc main_arg9)) := (W2_of_ne m ρ c main_arg9 (by decide)).trans (w1_arg9 m ρ c)
theorem w2_arg10 : W2 m ρ c (Proc.devRef .tc main_arg10) = (m ((c.tc : Thread nD τ).loc main_arg10)) := (W2_of_ne m ρ c main_arg10 (by decide)).trans (w1_arg10 m ρ c)
theorem w2_arg11 : W2 m ρ c (Proc.devRef .tc main_arg11) = (m ((c.tc : Thread nD τ).loc main_arg11)) := (W2_of_ne m ρ c main_arg11 (by decide)).trans (w1_arg11 m ρ c)
theorem w2_v3 : W2 m ρ c (Proc.devRef .tc main_v3) = val_main_v3 (F := Ideal) (m ((c.tc : Thread nD τ).loc main_arg1)) := (W2_of_ne m ρ c main_v3 (by decide)).trans (w1_v3 m ρ c)
theorem w2_v6 : W2 m ρ c (Proc.devRef .tc main_v6) = val_main_v6 (F := Ideal) (m ((c.tc : Thread nD τ).loc main_arg1)) := (W2_of_ne m ρ c main_v6 (by decide)).trans (w1_v6 m ρ c)
theorem w2_v26 : W2 m ρ c (Proc.devRef .tc main_v26) = val_main_v26 (F := Ideal) (m ((c.tc : Thread nD τ).loc main_arg1)) := (W2_of_ne m ρ c main_v26 (by decide)).trans (w1_v26 m ρ c)

theorem w2_v27 : W2 m ρ c (Proc.devRef .tc main_v27) = val_main_v27 (F := Ideal) (m ((c.tc : Thread nD τ).loc main_arg0)) (m ((c.tc : Thread nD τ).loc main_arg2)) := by
  rw [Cert.ReferenceIdeal.Stages.v27_eq]
  refine (W2_arr m ρ c 2).trans ?_
  rw [Proj0.final (V1 m ρ) c]
  exact congr (congrArg (project (R := 100000)) (w1_arg0 m ρ c)) (w1_arg2 m ρ c)

/-! ## After the second stretch: the first aggregation, the first bias as a row -/

theorem w3_v40 : W3 m ρ c (Proc.devRef .tc main_v40) = val_main_v40 (F := Ideal) (m ((c.tc : Thread nD τ).loc main_arg0)) (m ((c.tc : Thread nD τ).loc main_arg1)) (m ((c.tc : Thread nD τ).loc main_arg2)) := by
  rw [Cert.ReferenceIdeal.Stages.v40_eq]
  refine (Stretch.s1_v40 (W2 m ρ c)).trans ?_
  rw [w2_v27 m ρ c, w2_v3 m ρ c, w2_v6 m ρ c, w2_v26 m ρ c]

theorem w3_v41 : W3 m ρ c (Proc.devRef .tc main_v41) = rowVec (m ((c.tc : Thread nD τ).loc main_arg3)) :=
  (Stretch.s1_v41 (W2 m ρ c)).trans (congrArg rowVec (w2_arg3 m ρ c))

theorem w3_arg4 : W3 m ρ c (Proc.devRef .tc main_arg4) = (m ((c.tc : Thread nD τ).loc main_arg4)) := (Stretch.keep1_arg4 (W2 m ρ c)).trans (w2_arg4 m ρ c)
theorem w3_arg5 : W3 m ρ c (Proc.devRef .tc main_arg5) = (m ((c.tc : Thread nD τ).loc main_arg5)) := (Stretch.keep1_arg5 (W2 m ρ c)).trans (w2_arg5 m ρ c)
theorem w3_arg6 : W3 m ρ c (Proc.devRef .tc main_arg6) = (m ((c.tc : Thread nD τ).loc main_arg6)) := (Stretch.keep1_arg6 (W2 m ρ c)).trans (w2_arg6 m ρ c)
theorem w3_arg7 : W3 m ρ c (Proc.devRef .tc main_arg7) = (m ((c.tc : Thread nD τ).loc main_arg7)) := (Stretch.keep1_arg7 (W2 m ρ c)).trans (w2_arg7 m ρ c)
theorem w3_arg8 : W3 m ρ c (Proc.devRef .tc main_arg8) = (m ((c.tc : Thread nD τ).loc main_arg8)) := (Stretch.keep1_arg8 (W2 m ρ c)).trans (w2_arg8 m ρ c)
theorem w3_arg9 : W3 m ρ c (Proc.devRef .tc main_arg9) = (m ((c.tc : Thread nD τ).loc main_arg9)) := (Stretch.keep1_arg9 (W2 m ρ c)).trans (w2_arg9 m ρ c)
theorem w3_arg10 : W3 m ρ c (Proc.devRef .tc main_arg10) = (m ((c.tc : Thread nD τ).loc main_arg10)) := (Stretch.keep1_arg10 (W2 m ρ c)).trans (w2_arg10 m ρ c)
theorem w3_arg11 : W3 m ρ c (Proc.devRef .tc main_arg11) = (m ((c.tc : Thread nD τ).loc main_arg11)) := (Stretch.keep1_arg11 (W2 m ρ c)).trans (w2_arg11 m ρ c)
theorem w3_v3 : W3 m ρ c (Proc.devRef .tc main_v3) = val_main_v3 (F := Ideal) (m ((c.tc : Thread nD τ).loc main_arg1)) := (Stretch.keep1_v3 (W2 m ρ c)).trans (w2_v3 m ρ c)
theorem w3_v6 : W3 m ρ c (Proc.devRef .tc main_v6) = val_main_v6 (F := Ideal) (m ((c.tc : Thread nD τ).loc main_arg1)) := (Stretch.keep1_v6 (W2 m ρ c)).trans (w2_v6 m ρ c)
theorem w3_v26 : W3 m ρ c (Proc.devRef .tc main_v26) = val_main_v26 (F := Ideal) (m ((c.tc : Thread nD τ).loc main_arg1)) := (Stretch.keep1_v26 (W2 m ρ c)).trans (w2_v26 m ρ c)

/-! ## After region 1: the first layer's activations -/

theorem w4_v42 : W4 m ρ c (Proc.devRef .tc main_v42) = val_main_v44 (F := Ideal) (m ((c.tc : Thread nD τ).loc main_arg0)) (m ((c.tc : Thread nD τ).loc main_arg1)) (m ((c.tc : Thread nD τ).loc main_arg2)) (m ((c.tc : Thread nD τ).loc main_arg3)) := by
  rw [Cert.ReferenceIdeal.Stages.v44_eq]
  refine (W4_arr m ρ c 2).trans ?_
  rw [Bias1.final (V3 m ρ) c]
  exact congr (congrArg (biasRelu (R := 100000)) (w3_v40 m ρ c)) (w3_v41 m ρ c)

theorem w4_arg4 : W4 m ρ c (Proc.devRef .tc main_arg4) = (m ((c.tc : Thread nD τ).loc main_arg4)) := (W4_of_ne m ρ c main_arg4 (by decide)).trans (w3_arg4 m ρ c)
theorem w4_arg5 : W4 m ρ c (Proc.devRef .tc main_arg5) = (m ((c.tc : Thread nD τ).loc main_arg5)) := (W4_of_ne m ρ c main_arg5 (by decide)).trans (w3_arg5 m ρ c)
theorem w4_arg6 : W4 m ρ c (Proc.devRef .tc main_arg6) = (m ((c.tc : Thread nD τ).loc main_arg6)) := (W4_of_ne m ρ c main_arg6 (by decide)).trans (w3_arg6 m ρ c)
theorem w4_arg7 : W4 m ρ c (Proc.devRef .tc main_arg7) = (m ((c.tc : Thread nD τ).loc main_arg7)) := (W4_of_ne m ρ c main_arg7 (by decide)).trans (w3_arg7 m ρ c)
theorem w4_arg8 : W4 m ρ c (Proc.devRef .tc main_arg8) = (m ((c.tc : Thread nD τ).loc main_arg8)) := (W4_of_ne m ρ c main_arg8 (by decide)).trans (w3_arg8 m ρ c)
theorem w4_arg9 : W4 m ρ c (Proc.devRef .tc main_arg9) = (m ((c.tc : Thread nD τ).loc main_arg9)) := (W4_of_ne m ρ c main_arg9 (by decide)).trans (w3_arg9 m ρ c)
theorem w4_arg10 : W4 m ρ c (Proc.devRef .tc main_arg10) = (m ((c.tc : Thread nD τ).loc main_arg10)) := (W4_of_ne m ρ c main_arg10 (by decide)).trans (w3_arg10 m ρ c)
theorem w4_arg11 : W4 m ρ c (Proc.devRef .tc main_arg11) = (m ((c.tc : Thread nD τ).loc main_arg11)) := (W4_of_ne m ρ c main_arg11 (by decide)).trans (w3_arg11 m ρ c)
theorem w4_v3 : W4 m ρ c (Proc.devRef .tc main_v3) = val_main_v3 (F := Ideal) (m ((c.tc : Thread nD τ).loc main_arg1)) := (W4_of_ne m ρ c main_v3 (by decide)).trans (w3_v3 m ρ c)
theorem w4_v6 : W4 m ρ c (Proc.devRef .tc main_v6) = val_main_v6 (F := Ideal) (m ((c.tc : Thread nD τ).loc main_arg1)) := (W4_of_ne m ρ c main_v6 (by decide)).trans (w3_v6 m ρ c)
theorem w4_v26 : W4 m ρ c (Proc.devRef .tc main_v26) = val_main_v26 (F := Ideal) (m ((c.tc : Thread nD τ).loc main_arg1)) := (W4_of_ne m ρ c main_v26 (by decide)).trans (w3_v26 m ρ c)

/-! ## After region 2: the second projection -/

theorem w5_v43 : W5 m ρ c (Proc.devRef .tc main_v43) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.Stages.v45_eq]
  refine (W5_arr m ρ c 2).trans ?_
  rw [Proj2.final (V4 m ρ) c]
  exact congr (congrArg (project (R := 100000)) (w4_v42 m ρ c)) (w4_arg4 m ρ c)

theorem w5_arg5 : W5 m ρ c (Proc.devRef .tc main_arg5) = (m ((c.tc : Thread nD τ).loc main_arg5)) := (W5_of_ne m ρ c main_arg5 (by decide)).trans (w4_arg5 m ρ c)
theorem w5_arg6 : W5 m ρ c (Proc.devRef .tc main_arg6) = (m ((c.tc : Thread nD τ).loc main_arg6)) := (W5_of_ne m ρ c main_arg6 (by decide)).trans (w4_arg6 m ρ c)
theorem w5_arg7 : W5 m ρ c (Proc.devRef .tc main_arg7) = (m ((c.tc : Thread nD τ).loc main_arg7)) := (W5_of_ne m ρ c main_arg7 (by decide)).trans (w4_arg7 m ρ c)
theorem w5_arg8 : W5 m ρ c (Proc.devRef .tc main_arg8) = (m ((c.tc : Thread nD τ).loc main_arg8)) := (W5_of_ne m ρ c main_arg8 (by decide)).trans (w4_arg8 m ρ c)
theorem w5_arg9 : W5 m ρ c (Proc.devRef .tc main_arg9) = (m ((c.tc : Thread nD τ).loc main_arg9)) := (W5_of_ne m ρ c main_arg9 (by decide)).trans (w4_arg9 m ρ c)
theorem w5_arg10 : W5 m ρ c (Proc.devRef .tc main_arg10) = (m ((c.tc : Thread nD τ).loc main_arg10)) := (W5_of_ne m ρ c main_arg10 (by decide)).trans (w4_arg10 m ρ c)
theorem w5_arg11 : W5 m ρ c (Proc.devRef .tc main_arg11) = (m ((c.tc : Thread nD τ).loc main_arg11)) := (W5_of_ne m ρ c main_arg11 (by decide)).trans (w4_arg11 m ρ c)
theorem w5_v3 : W5 m ρ c (Proc.devRef .tc main_v3) = val_main_v3 (F := Ideal) (m ((c.tc : Thread nD τ).loc main_arg1)) := (W5_of_ne m ρ c main_v3 (by decide)).trans (w4_v3 m ρ c)
theorem w5_v6 : W5 m ρ c (Proc.devRef .tc main_v6) = val_main_v6 (F := Ideal) (m ((c.tc : Thread nD τ).loc main_arg1)) := (W5_of_ne m ρ c main_v6 (by decide)).trans (w4_v6 m ρ c)
theorem w5_v26 : W5 m ρ c (Proc.devRef .tc main_v26) = val_main_v26 (F := Ideal) (m ((c.tc : Thread nD τ).loc main_arg1)) := (W5_of_ne m ρ c main_v26 (by decide)).trans (w4_v26 m ρ c)

/-! ## After the third stretch: the second aggregation, the second bias as a row -/

theorem w6_v56 : W6 m ρ c (Proc.devRef .tc main_v56) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.Stages.v58_eq]
  refine (Stretch.s3_v56 (W5 m ρ c)).trans ?_
  rw [w5_v43 m ρ c, w5_v3 m ρ c, w5_v6 m ρ c, w5_v26 m ρ c]

theorem w6_v57 : W6 m ρ c (Proc.devRef .tc main_v57) = rowVec (m ((c.tc : Thread nD τ).loc main_arg5)) :=
  (Stretch.s3_v57 (W5 m ρ c)).trans (congrArg rowVec (w5_arg5 m ρ c))

theorem w6_arg6 : W6 m ρ c (Proc.devRef .tc main_arg6) = (m ((c.tc : Thread nD τ).loc main_arg6)) := (Stretch.keep3_arg6 (W5 m ρ c)).trans (w5_arg6 m ρ c)
theorem w6_arg7 : W6 m ρ c (Proc.devRef .tc main_arg7) = (m ((c.tc : Thread nD τ).loc main_arg7)) := (Stretch.keep3_arg7 (W5 m ρ c)).trans (w5_arg7 m ρ c)
theorem w6_arg8 : W6 m ρ c (Proc.devRef .tc main_arg8) = (m ((c.tc : Thread nD τ).loc main_arg8)) := (Stretch.keep3_arg8 (W5 m ρ c)).trans (w5_arg8 m ρ c)
theorem w6_arg9 : W6 m ρ c (Proc.devRef .tc main_arg9) = (m ((c.tc : Thread nD τ).loc main_arg9)) := (Stretch.keep3_arg9 (W5 m ρ c)).trans (w5_arg9 m ρ c)
theorem w6_arg10 : W6 m ρ c (Proc.devRef .tc main_arg10) = (m ((c.tc : Thread nD τ).loc main_arg10)) := (Stretch.keep3_arg10 (W5 m ρ c)).trans (w5_arg10 m ρ c)
theorem w6_arg11 : W6 m ρ c (Proc.devRef .tc main_arg11) = (m ((c.tc : Thread nD τ).loc main_arg11)) := (Stretch.keep3_arg11 (W5 m ρ c)).trans (w5_arg11 m ρ c)

/-! ## After region 3: the second layer's activations -/

theorem w7_v58 : W7 m ρ c (Proc.devRef .tc main_v58) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [Cert.ReferenceIdeal.Stages.v62_eq]
  refine (W7_arr m ρ c 2).trans ?_
  rw [Bias3.final (V6 m ρ) c]
  exact congr (congrArg (biasRelu (R := 100000)) (w6_v56 m ρ c)) (w6_v57 m ρ c)

theorem w7_arg6 : W7 m ρ c (Proc.devRef .tc main_arg6) = (m ((c.tc : Thread nD τ).loc main_arg6)) := (W7_of_ne m ρ c main_arg6 (by decide)).trans (w6_arg6 m ρ c)
theorem w7_arg7 : W7 m ρ c (Proc.devRef .tc main_arg7) = (m ((c.tc : Thread nD τ).loc main_arg7)) := (W7_of_ne m ρ c main_arg7 (by decide)).trans (w6_arg7 m ρ c)
theorem w7_arg8 : W7 m ρ c (Proc.devRef .tc main_arg8) = (m ((c.tc : Thread nD τ).loc main_arg8)) := (W7_of_ne m ρ c main_arg8 (by decide)).trans (w6_arg8 m ρ c)
theorem w7_arg9 : W7 m ρ c (Proc.devRef .tc main_arg9) = (m ((c.tc : Thread nD τ).loc main_arg9)) := (W7_of_ne m ρ c main_arg9 (by decide)).trans (w6_arg9 m ρ c)
theorem w7_arg10 : W7 m ρ c (Proc.devRef .tc main_arg10) = (m ((c.tc : Thread nD τ).loc main_arg10)) := (W7_of_ne m ρ c main_arg10 (by decide)).trans (w6_arg10 m ρ c)
theorem w7_arg11 : W7 m ρ c (Proc.devRef .tc main_arg11) = (m ((c.tc : Thread nD τ).loc main_arg11)) := (W7_of_ne m ρ c main_arg11 (by decide)).trans (w6_arg11 m ρ c)

/-! ## After the fourth stretch: the head's biases laid out -/

theorem w8_v58 : W8 m ρ c (Proc.devRef .tc main_v58) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := (Stretch.keep4_v58 (W7 m ρ c)).trans (w7_v58 m ρ c)
theorem w8_arg6 : W8 m ρ c (Proc.devRef .tc main_arg6) = (m ((c.tc : Thread nD τ).loc main_arg6)) := (Stretch.keep4_arg6 (W7 m ρ c)).trans (w7_arg6 m ρ c)
theorem w8_arg8 : W8 m ρ c (Proc.devRef .tc main_arg8) = (m ((c.tc : Thread nD τ).loc main_arg8)) := (Stretch.keep4_arg8 (W7 m ρ c)).trans (w7_arg8 m ρ c)
theorem w8_arg10 : W8 m ρ c (Proc.devRef .tc main_arg10) = (m ((c.tc : Thread nD τ).loc main_arg10)) := (Stretch.keep4_arg10 (W7 m ρ c)).trans (w7_arg10 m ρ c)
theorem w8_v59 : W8 m ρ c (Proc.devRef .tc main_v59) = rowVec (m ((c.tc : Thread nD τ).loc main_arg7)) := (Stretch.s4_v59 (W7 m ρ c)).trans (congrArg rowVec (w7_arg7 m ρ c))
theorem w8_v60 : W8 m ρ c (Proc.devRef .tc main_v60) = rowVec (m ((c.tc : Thread nD τ).loc main_arg9)) := (Stretch.s4_v60 (W7 m ρ c)).trans (congrArg rowVec (w7_arg9 m ρ c))
theorem w8_v61 : W8 m ρ c (Proc.devRef .tc main_v61) = cell (m ((c.tc : Thread nD τ).loc main_arg11)) := (Stretch.s4_v61 (W7 m ρ c)).trans (congrArg cell (w7_arg11 m ρ c))

/-! ## After region 4: the head's column; after the last stretch: the result -/

/-- Equal operands give equal heads. -/
theorem head_congr {H H' : (⟨2, ![100000, 64]⟩ : Shape).Idx → EReal} {W1 W1' W2 W2' : (⟨2, ![64, 64]⟩ : Shape).Idx → EReal}
    {b1 b1' b2 b2' : (⟨2, ![1, 64]⟩ : Shape).Idx → EReal} {W3 W3' : (⟨2, ![64, 1]⟩ : Shape).Idx → EReal}
    {b3 b3' : (⟨2, ![1, 1]⟩ : Shape).Idx → EReal}
    (h0 : H = H') (h1 : W1 = W1') (h2 : b1 = b1') (h3 : W2 = W2') (h4 : b2 = b2') (h5 : W3 = W3') (h6 : b3 = b3') :
    head (R := 100000) H W1 b1 W2 b2 W3 b3 = head (R := 100000) H' W1' b1' W2' b2' W3' b3' := by
  subst h0 h1 h2 h3 h4 h5 h6; rfl

theorem w9_v62 : W9 m ρ c (Proc.devRef .tc main_v62) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [Cert.ReferenceIdeal.Stages.v76_eq]
  refine (W9_arr m ρ c 7).trans ?_
  rw [Head4.final (V8 m ρ) c]
  exact head_congr (w8_v58 m ρ c) (w8_arg6 m ρ c) (w8_v59 m ρ c) (w8_arg8 m ρ c) (w8_v60 m ρ c) (w8_arg10 m ρ c) (w8_v61 m ρ c)

/-- THE RESULT: the last boundary's contents at the result buffer are the reference's last stage of the arguments. -/
theorem result : W10 m ρ c (Proc.devRef .tc main_v63) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Read.val_main_v77
  refine (Stretch.s5_v63 (W9 m ρ c)).trans ?_
  rw [w9_v62 m ρ c]

end Cert.KernelIdeal.Walk

end
-- ==== Proof.lean ====
/-
  A two-layer graph convolution with a three-layer head, tiled over blocks of 5000 nodes, against its plain reference,
  over the extended reals.

  Both programs build the same edge arrays (sources and targets with a self-loop per node, each edge's normalisation
  `deg(src)^(-1/2) · deg(dst)^(-1/2)`) and, per layer, gather the projected features at the sources, scale them and add
  them up at the targets, by the same host operations. They differ only in the regular stages. The tiled program runs
  each projection `h · W`, each bias-and-clamp `max(a + b, 0)` and the whole head as a region over 20 blocks of rows;
  the reference runs them as whole-array host operations. On the extended reals a change of float format is the
  identity and a matrix product is the plain sum over the contracted axis whatever the order of the additions, so each
  regular stage is ONE function of a row of its operand (`Cert.Spec`): the region applies it to each row of each block,
  the reference to each row of the array, and the blocks tile the array. No law beyond that is needed — the two sides
  are term for term the same sums, so finiteness of the inputs is never used.

  The three frames are the generated ones (the reference's is its generated run with the result dropped), and the
  idealization rewrote nothing, so there is nothing to preserve.
-/
import proofs.«179422_j90701119357780_1_alg».proof.Defs
import proofs.«179422_j90701119357780_1_alg».proof.Proof.Gen.Kernel
import proofs.«179422_j90701119357780_1_alg».proof.Proof.Gen.Kernel.Frame
import proofs.«179422_j90701119357780_1_alg».proof.Proof.Gen.KernelIdeal
import proofs.«179422_j90701119357780_1_alg».proof.Proof.Gen.KernelIdeal.Frame
import proofs.«179422_j90701119357780_1_alg».proof.Proof.Gen.ReferenceIdeal
import proofs.«179422_j90701119357780_1_alg».proof.Proof.Gen.ReferenceIdeal.Run
import proofs.«179422_j90701119357780_1_alg».proof.Proof.Gen.ReferenceIdeal.Read
import proofs.«179422_j90701119357780_1_alg».proof.Proof.Gen.Pre_finite_inputs
import proofs.«179422_j90701119357780_1_alg».proof.Proof.ValueRun
import proofs.«179422_j90701119357780_1_alg».proof.Proof.Walk
import Idealize.ShloMosaic.Adequacy
import Idealize.ShloMosaic.Init

noncomputable section

namespace Cert.Proof

open Idealize.ShloMosaic Idealize.ShloMosaic.TcCoe Idealize.SL.Sem

/-- The word-level tiled program runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the tiled program's result buffer
    ends at the last boundary's contents, which are the reference's last stage of the arguments
    (`Cert.KernelIdeal.Walk.result`), and the reference's run ends at that stage of its own, equal, arguments. -/
theorem algebraic : Cert.algebraic_KernelIdeal_ReferenceIdeal := by
  intro m ρ m' ρ' _ hagree
  refine ⟨fun c => Cert.KernelIdeal.Gen.W10 m ρ c (Proc.devRef .tc Cert.KernelIdeal.main_v63),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v77_eq, h0, h1, h2, h3, h4, h5, h6, h7, h8, h9, h10, h11]
  exact (Cert.KernelIdeal.Walk.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
